-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S128x64 .f32) (main_arg4 : FVec F S64 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S128x128 : Shape := ⟨2, ![128, 128]⟩
abbrev S10000x128 : Shape := ⟨2, ![10000, 128]⟩
abbrev S1600000x128 : Shape := ⟨2, ![1600000, 128]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 70
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S128x128, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S128x64_S128x64_S128x128_d1 : Shape.Concatenates [S128x64, S128x64] S128x128 1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S100000x128_S100000x64_0_0 : S100000x128.Slices ![0, 0] S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x128_S100000x64_0_64 : S100000x128.Slices ![0, 64] S100000x64
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000, .f32⟩
  | .hbm, ⟨83, _⟩ => ⟨S1600000, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S1600000x1, .f32⟩
  | .hbm, ⟨94, _⟩ => ⟨S1600000x64, .f32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000, .f32⟩
  | .hbm, ⟨101, _⟩ => ⟨S100000x1, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_10 : Ref sig .tc := ⟨.hbm, 74, rfl⟩
abbrev main_v56 : Ref sig .tc := ⟨.hbm, 75, rfl⟩
abbrev main_v57 : Ref sig .tc := ⟨.hbm, 76, rfl⟩
abbrev main_c_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_c_13 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelArray.lean ====
/- The array the region leaves behind, as one matrix product.

   The region walks ten grid points. At point t it stages rows 10000·t … 10000·t + 9999 of the
   left factor x (all 128 columns), the whole 128 × 128 right factor w, and writes rows
   10000·t … 10000·t + 9999 of the result. Over the extended reals the body's arithmetic is the
   plain sum of products, so entry (r, c) of the result depends on row r of x and column c of w
   only, and the row blocks, which do not overlap and together fill the array, assemble the
   whole product x · w. -/
import proofs.«111841_j53120155517008_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat)

/-- x · w, index by index. -/
def prod (x : S100000x128.Idx → EReal) (w : S128x128.Idx → EReal) : S100000x128.Idx → EReal :=
  fun i => ∑ k : Fin 128, x (ix2 (i 0) k) * w (ix2 k (i 1))

/-! ## One block: the body's arithmetic at an entry

The contraction runs over the second axis of the left operand and the first axis of the right
operand; the remaining axis of each operand is carried to the result. The four lemmas below read
that off the dimension record, one coordinate at a time. -/

/-- The left operand is read in the result's row. -/
theorem lhs_row (i : S10000x128.Idx) (r : dot_S10000x128_S128x128_S10000x128_1_0_0_1_n_n.contr.Idx) : (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- Its column is the summation index. -/
theorem lhs_col (i : S10000x128.Idx) (r : dot_S10000x128_S128x128_S10000x128_1_0_0_1_n_n.contr.Idx) : (dot_S10000x128_S128x128_S10000x128_1_0_0_1_n_n.lhsIdx i r 1).val = (r ⟨0, by decide⟩).val :=
  dot_S10000x128_S128x128_S10000x128_1_0_0_1_n_n.lhsIdx_val_of_single rfl i r
/-- The right operand's row is the summation index. -/
theorem rhs_row (i : S10000x128.Idx) (r : dot_S10000x128_S128x128_S10000x128_1_0_0_1_n_n.contr.Idx) : (dot_S10000x128_S128x128_S10000x128_1_0_0_1_n_n.rhsIdx i r 0).val = (r ⟨0, by decide⟩).val :=
  dot_S10000x128_S128x128_S10000x128_1_0_0_1_n_n.rhsIdx_val_of_single rfl i r
/-- It is read in the result's column. -/
theorem rhs_col (i : S10000x128.Idx) (r : dot_S10000x128_S128x128_S10000x128_1_0_0_1_n_n.contr.Idx) : (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- Entry (p, q) of what the body computes from a row block x0 and the right factor x1: over the
    extended reals narrowing a format changes nothing, recasting a shape to itself changes nothing,
    and a product accumulated onto zero is the sum over k of x0 (p, k) · x1 (k, q). -/
theorem pay_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]
  show x0 (ix2 p k) * (shapeCast S128x128 x1 shapeCasts_S128x128_S128x128) (ix2 k q) = _
  rw [shapeCast_self]

/-! ## Where each block sits in its array

A block's coordinate in the array is (block index) × (block extent) + (coordinate inside the
block). The block indices of the three windows, compared over the ten grid points: the left
factor's row block moves with the result's; every column block index is 0; the right factor's
block index is (0, 0) throughout; and the result's row block index runs through 0 … 9. -/

theorem hz : (![0, 0] : Fin 2 → Nat) = fun _ => 0 := funext fun a => by fin_cases a <;> rfl

theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Each of the ten row blocks of the result is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (m : (ℓ : Loc nD τ sig) → Buf (Elt Ideal) ℓ)

/-- The left factor's block at point t, at (y₀, y₁), is x at row (result's row block index) · 10000 + y₀
    and column y₁. -/
theorem xblk_apply (c : Dev nD) (t : Fin cfg0.N) (y : S10000x128.Idx) (i : S100000x128.Idx)
    (h0 : (i 0).val = win0_2.index t (0 : Fin 2) * 10000 + (y 0).val) (h1 : (i 1).val = (y 1).val) :
    (iblk m c 0 t : Vec Ideal S10000x128 .f32) y = V m c main_arg0 i := by
  obtain ⟨e0, e1, -⟩ := idx_facts t
  unfold iblk
  rw [View.read_apply]
  show V m c main_arg0 (((cfg0.win 0).blk t).view.emb y) = V m c main_arg0 i
  refine congrArg (V m c main_arg0) ?_
  funext a; apply Fin.ext
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The right factor's block is the whole of w at every point. -/
theorem wblk_apply (c : Dev nD) (t : Fin cfg0.N) (y : S128x128.Idx) :
    (iblk m c 1 t : Vec Ideal S128x128 .f32) y = V m c main_v11 y := by
  obtain ⟨-, -, e2, e3, -⟩ := idx_facts t
  unfold iblk
  rw [View.read_apply]
  show V m c main_v11 (((cfg0.win 1).blk t).view.emb y) = V m c main_v11 y
  refine congrArg (V m c main_v11) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-! ## What one point writes back -/

/-- Point t writes back block t of x · w: entry (p, q) of its block is the sum over k of
    x (10000·t + p, k) · w (k, q), which is entry (10000·t + p, q) of the product. -/
theorem flushed_eq (c : Dev nD) (t : Fin cfg0.N) :
    (dats (F := Ideal) m 0 c).flushed 2 t
      = ((cfg0.win 2).blk t).view.read (Elt Ideal) (prod (V m c main_arg0) (V m c main_v11)) := by
  show (cfg0.win 2).cut (grid0.coords t) ((dats m 0 c).after 2 t) = _
  rw [after0_2]
  unfold out0_2
  rw [View.canon_unit_zero hz]
  simp only [View.ld_unit_zero (S := S10000x128) hz, View.ld_unit_zero (S := S128x128) hz]
  obtain ⟨-, -, -, -, e4, -⟩ := idx_facts t
  funext j
  obtain ⟨p, q, rfl⟩ : ∃ (p : Fin 10000) (q : Fin 128), j = ix2 p q := ⟨j 0, j 1, eq_ix2 (n0 := 10000) (n1 := 128) j⟩
  show k0_pay1 (F := Ideal) (iblk m c 0 t) (iblk m c 1 t) (ix2 p q)
    = prod (V m c main_arg0) (V m c main_v11) (((cfg0.win 2).blk t).view.emb (ix2 p q))
  refine (pay_apply (iblk m c 0 t) (iblk m c 1 t) p q).trans ?_
  unfold prod
  refine Finset.sum_congr rfl fun k _ => ?_
  refine congrArg₂ (· * ·) (xblk_apply m c t (ix2 p k) _ ?_ ?_) (wblk_apply m c t (ix2 k q) |>.trans ?_)
  · show win0_2.index t (0 : Fin 2) * 10000 + 1 * p.val = win0_2.index t (0 : Fin 2) * 10000 + p.val; omega
  · rfl
  · refine congrArg (V m c main_v11) ?_
    funext a; apply Fin.ext
    match a with
    | ⟨0, _⟩ => rfl
    | ⟨1, _⟩ => show q.val = win0_2.index t (1 : Fin 2) * 128 + 1 * q.val; omega

/-! ## The blocks fill the array -/

/-- An index lies in point t's block exactly when each coordinate lies in the block's range. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v12).slice (win0_2.rect t)).set ↔ _
  rw [View.set_slice_whole, Rect.mem_set_unit]
  exact Iff.rfl

/-- Row r lies in the row block r / 10000, one of the ten, and a block spans all 128 columns: every
    index of the result is in the block of a point that writes back. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After the region the result array is the matrix product of the left factor and the right
    factor as the region found them. -/
theorem final (c : Dev nD) :
    (dats (F := Ideal) m 0 c).arrAt 2 cfg0.N = prod (V m c main_arg0) (V m c main_v11) :=
  (dats m 0 c).arrAt_eq_of_cover 2 (prod (V m c main_arg0) (V m c main_v11)) (fun t _ => flushed_eq m c t) cover

end Cert.KernelIdeal.Region

end
-- ==== Proof.RowOps.lean ====
/-
  Row gather and row scatter-add, read at an index.

  A two-axis array `x : [N, W]` is indexed by whole rows: start indices `idx : [E, 1]` name one row per entry `e`, the
  window is the full row (`W` columns), so entry `(e, c)` of the gather is `x` at row `idx e` — read as a signed integer
  and clamped into `[0, N − 1]` — and column `c`. The accumulating scatter goes the other way: update `(e, c)` is added
  to the operand at row `idx e` (read signed, NOT clamped; a row outside `[0, N)` is dropped) and column `c`. So at the
  exact instance element `(r, c)` of the scatter is the operand's element plus the sum, over the entries `e` whose
  row is `r`, of update `(e, c)`: only column `c` of the updates is read. Both facts hold for every width `W`, which is
  what lets a wide array be handled one column at a time.
-/
import Idealize.ShloMosaic.PureOps.Ideal
import Idealize.ShloMosaic.Lib.ValueIdx

noncomputable section

open scoped BigOperators

namespace Cert.RowOps

open Idealize.ShloMosaic Idealize.ShloMosaic.ValueIdx

/-! ## The gather of whole rows -/

/-- The dimension numbers of `x[idx]` for `x : [N, W]` and one row number per entry: the row axis is collapsed and
    indexed, the column axis is the window. -/
abbrev rowGather (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- A word read as a signed row number and clamped into `[0, N − 1]`. -/
abbrev clampRow {w : Nat} (N : Nat) (hN : 0 < N) (v : BitVec w) : Fin N := ⟨min v.toInt.toNat (N - 1), by omega⟩

/-- Entry `(e, c)` of the row gather is the operand at the clamped row `idx e`, column `c`. -/
theorem rowGather_apply {α : Type} {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (c : Fin W) :
    Host.gather (rowGather N E W wf) x idx (ix2 e c) = x (ix2 (clampRow N hN (idx (ix2 e 0))) c) := by
  unfold Host.gather
  congr 1
  funext a
  refine Fin.ext ?_
  match a with
  | ⟨0, _⟩ =>
    show (rowGather N E W wf).start (ix2 e c) idx 0 + (rowGather N E W wf).batchCoord (ix2 e c) 0
      + (rowGather N E W wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E W wf).startIndexMap from List.mem_singleton.mpr rfl)]
    have hsi : (rowGather N E W wf).siIdx (ix2 e c) ⟨List.idxOf (0 : Fin 2) (rowGather N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E W wf).start (ix2 e c) idx 1 + (rowGather N E W wf).batchCoord (ix2 e c) 1
      + (rowGather N E W wf).offCoord (ix2 e c) 1 = c.val
    rw [GatherDims.batchCoord_eq_zero _ _ _ List.not_mem_nil]
    have hs : (rowGather N E W wf).start (ix2 e c) idx 1 = 0 := by
      unfold GatherDims.start
      rw [dif_neg (show (1 : Fin 2) ∉ ([0] : List (Fin 2)) by decide)]
    rw [hs]
    simp only [Nat.zero_add, Nat.add_zero]
    unfold GatherDims.offCoord
    rw [dif_pos ((GatherDims.mem_sKept _ _).mpr
      ⟨(show (1 : Fin 2) ∉ ([0] : List (Fin 2)) by decide), List.not_mem_nil⟩)]
    rfl

/-! ## The accumulating scatter of whole rows -/

/-- The dimension numbers of `x.at[idx].add(upd)` for `x : [N, W]`, one row number per entry and `upd : [E, W]`. -/
abbrev rowScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section Scatter

variable {N E W w : Nat} (wf : ScatterDims.WF ⟨2, ![N, W]⟩ ⟨2, ![E, 1]⟩ ⟨2, ![E, W]⟩ [1] [0] [0] 1)
  (idx : IVec ⟨2, ![E, 1]⟩ w)

/-- On the row axis an update's window starts at its entry's row number, read signed. -/
theorem rowScatter_start0 (e : Fin E) (c : Fin W) :
    (rowScatter N E W wf).start (ix2 e c) idx 0 = (idx (ix2 e 0)).toInt := by
  unfold ScatterDims.start
  rw [dif_pos (show (0 : Fin 2) ∈ (rowScatter N E W wf).scatterDimsToOperandDims from List.mem_singleton.mpr rfl)]
  have hsi : (rowScatter N E W wf).siIdx (ix2 e c) ⟨List.idxOf (0 : Fin 2) (rowScatter N E W wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at zero. -/
theorem rowScatter_start1 (e : Fin E) (c : Fin W) : (rowScatter N E W wf).start (ix2 e c) idx 1 = 0 := by
  unfold ScatterDims.start
  rw [dif_neg (show (1 : Fin 2) ∉ ([0] : List (Fin 2)) by decide)]

/-- The row axis is inserted: no window coordinate. -/
theorem rowScatter_window0 (e : Fin E) (c : Fin W) : (rowScatter N E W wf).window (ix2 e c) 0 = 0 := by
  have h0 : (0 : Fin 2) ∉ (rowScatter N E W wf).sKept :=
    show (0 : Fin 2) ∉ (List.finRange 2).filter (fun a => a ∉ ([0] : List (Fin 2))) by decide
  unfold ScatterDims.window
  rw [dif_neg h0]

/-- The column axis is the window: its coordinate is the update's column. -/
theorem rowScatter_window1 (e : Fin E) (c : Fin W) : (rowScatter N E W wf).window (ix2 e c) 1 = c.val := by
  have h1 : (1 : Fin 2) ∈ (rowScatter N E W wf).sKept :=
    show (1 : Fin 2) ∈ (List.finRange 2).filter (fun a => a ∉ ([0] : List (Fin 2))) by decide
  unfold ScatterDims.window
  rw [dif_pos h1]
  rfl

/-- Update `(e, c')` lands on element `(r, c)` exactly when entry `e`'s row number is `r` and the columns agree. -/
theorem rowScatter_lands_iff (e : Fin E) (c' : Fin W) (r : Fin N) (c : Fin W) :
    (rowScatter N E W wf).resultIdx? (ix2 e c') idx = some (ix2 r c)
      ↔ (idx (ix2 e 0)).toInt = (r.val : Int) ∧ c' = c := by
  have hr := r.isLt
  have hc := c'.isLt
  unfold ScatterDims.resultIdx?
  split
  · rename_i h
    rw [Option.some.injEq]
    constructor
    · intro hf
      have h0 := congrArg (fun f => (f 0).val) hf
      have h1 := congrArg (fun f => (f 1).val) hf
      simp only [rowScatter_start0, rowScatter_start1, rowScatter_window0, rowScatter_window1] at h0 h1
      have g0 := (h 0).1
      simp only [rowScatter_start0, rowScatter_window0] at g0
      refine ⟨?_, Fin.ext ?_⟩
      · have : ((idx (ix2 e 0)).toInt + ((0 : Nat) : Int)).toNat = r.val := h0
        omega
      · have : ((0 : Int) + (c'.val : Int)).toNat = c.val := h1
        omega
    · rintro ⟨h0, rfl⟩
      funext a
      refine Fin.ext ?_
      match a with
      | ⟨0, _⟩ =>
        show ((rowScatter N E W wf).start (ix2 e c') idx 0 + ((rowScatter N E W wf).window (ix2 e c') 0 : Int)).toNat = r.val
        rw [rowScatter_start0, rowScatter_window0, h0]; simp
      | ⟨1, _⟩ =>
        show ((rowScatter N E W wf).start (ix2 e c') idx 1 + ((rowScatter N E W wf).window (ix2 e c') 1 : Int)).toNat = c'.val
        rw [rowScatter_start1, rowScatter_window1]; simp
  · rename_i h
    constructor
    · intro hf; cases hf
    · rintro ⟨h0, rfl⟩
      exfalso; apply h
      intro a
      match a with
      | ⟨0, _⟩ =>
        show 0 ≤ (rowScatter N E W wf).start (ix2 e c') idx 0 + ((rowScatter N E W wf).window (ix2 e c') 0 : Int)
          ∧ (rowScatter N E W wf).start (ix2 e c') idx 0 + ((rowScatter N E W wf).window (ix2 e c') 0 : Int) < (N : Int)
        rw [rowScatter_start0, rowScatter_window0, h0]; constructor <;> omega
      | ⟨1, _⟩ =>
        show 0 ≤ (rowScatter N E W wf).start (ix2 e c') idx 1 + ((rowScatter N E W wf).window (ix2 e c') 1 : Int)
          ∧ (rowScatter N E W wf).start (ix2 e c') idx 1 + ((rowScatter N E W wf).window (ix2 e c') 1 : Int) < (W : Int)
        rw [rowScatter_start1, rowScatter_window1]; constructor <;> omega

/-- Element `(r, c)` of the accumulating row scatter at the exact instance: the operand's element plus the sum, over
    the entries whose row number is `r`, of column `c` of the updates. -/
theorem rowScatterAdd_apply (x : (⟨2, ![N, W]⟩ : Shape).Idx → EReal) (upd : (⟨2, ![E, W]⟩ : Shape).Idx → EReal)
    (r : Fin N) (c : Fin W) :
    Ideal.hostScatterAdd (rowScatter N E W wf) x idx upd (ix2 r c)
      = x (ix2 r c) + ∑ e ∈ Finset.univ.filter (fun e : Fin E => (idx (ix2 e 0)).toInt = (r.val : Int)), upd (ix2 e c) := by
  unfold Ideal.hostScatterAdd
  congr 1
  rw [Finset.sum_filter, Finset.sum_filter, sum_idx2]
  refine Finset.sum_congr rfl fun e _ => ?_
  simp only [rowScatter_lands_iff]
  by_cases he : (idx (ix2 e 0)).toInt = (r.val : Int)
  · simp only [he, true_and, if_true]
    rw [Finset.sum_ite_eq' Finset.univ c (fun c' => upd (ix2 e c'))]
    simp
  · simp [he]

/-- The same for the host operation itself at the exact instance (there it IS that sum). -/
theorem hostScatterAdd_rows {φ : FTy} (x : FVec Ideal ⟨2, ![N, W]⟩ φ) (upd : FVec Ideal ⟨2, ![E, W]⟩ φ)
    (r : Fin N) (c : Fin W) :
    Host.scatterAdd (F := Ideal) (rowScatter N E W wf) x idx upd (ix2 r c)
      = x (ix2 r c) + ∑ e ∈ Finset.univ.filter (fun e : Fin E => (idx (ix2 e 0)).toInt = (r.val : Int)), upd (ix2 e c) :=
  rowScatterAdd_apply wf idx x upd r c

end Scatter

end Cert.RowOps

end
-- ==== Proof.Aggregate.lean ====
/-
  The graph aggregation, one column at a time.

  Both programs aggregate a node-feature array `H` over the edges of a graph: edge `e` carries row `src e` of `H`, scaled
  by the edge's factor, to row `dst e`; rows arriving at the same node are summed, and the node's own row, scaled by
  the node's factor, is added. One program does this once for an array of 128 columns, the other for an array of 64
  columns. Element `(r, c)` of the result reads `H` only in column `c`: the gather picks whole rows, the factors do not
  depend on the column, and the accumulating scatter adds update `(e, c)` to element `(dst e, c)`. So when a
  64-column array is a band of columns of a 128-column one, its aggregation is the same band of the wide
  aggregation — no law of the extended reals is used, the two sums have the same terms in the same index set.
-/
import proofs.«111841_j53120155517008_2_alg».proof.KernelIdeal
import proofs.«111841_j53120155517008_2_alg».proof.ReferenceIdeal
import proofs.«111841_j53120155517008_2_alg».proof.Proof.Gen.KernelIdeal
import proofs.«111841_j53120155517008_2_alg».proof.Proof.Gen.ReferenceIdeal
import proofs.«111841_j53120155517008_2_alg».proof.Proof.RowOps
import Idealize.ShloMosaic.Lib.ValueIdx
import Idealize.ShloMosaic.Lib.Pipeline.Value

noncomputable section

open scoped BigOperators

namespace Cert.Agg

open Idealize.ShloMosaic Idealize.ShloMosaic.ValueIdx Cert.RowOps

/-- The aggregation over rows of width 128: every edge `e` sends row `src e` of `H`, scaled by `nrm e`, to row
    `dst e`; the rows are summed per destination, and each row's own `H`, scaled by `d2`, is added. -/
def wide (H : FVec Ideal ⟨2, ![100000, 128]⟩ .f32) (srcw dstb : IVec ⟨2, ![1600000, 1]⟩ 32)
    (nrm : FVec Ideal ⟨1, ![1600000]⟩ .f32) (d2 : FVec Ideal ⟨1, ![100000]⟩ .f32) : FVec Ideal ⟨2, ![100000, 128]⟩ .f32 :=
  addf
    (Host.scatterAdd Cert.KernelIdeal.scatter_S100000x128_S1600000x1_S1600000x128_1_0_0_1
      (broadcastInDim Cert.KernelIdeal.S100000x128 ![] Cert.KernelIdeal.Facts₀.bcast_S_S100000x128 (constant (F := Ideal) Cert.KernelIdeal.S_ .f32 0x00000000#32))
      dstb
      (mulf (Host.gather Cert.KernelIdeal.gather_S100000x128_S1600000x1_S1600000x128_1_0_n_n_0_1_1128 H srcw)
        (broadcastInDim Cert.KernelIdeal.S1600000x128 ![0, 1] Cert.KernelIdeal.Facts₀.bcast_S1600000x1_S1600000x128_0_1
          (broadcastInDim Cert.KernelIdeal.S1600000x1 ![0] Cert.KernelIdeal.Facts₀.bcast_S1600000_S1600000x1_0 nrm))))
    (mulf H
      (broadcastInDim Cert.KernelIdeal.S100000x128 ![0, 1] Cert.KernelIdeal.Facts₀.bcast_S100000x1_S100000x128_0_1
        (broadcastInDim Cert.KernelIdeal.S100000x1 ![0] Cert.KernelIdeal.Facts₀.bcast_S100000_S100000x1_0 d2)))

/-- A per-edge factor spread over the 128 columns reads back as the factor. -/
theorem wide_edge (nrm : FVec Ideal ⟨1, ![1600000]⟩ .f32) (e : Fin 1600000) (c : Fin 128) :
    broadcastInDim Cert.KernelIdeal.S1600000x128 ![0, 1] Cert.KernelIdeal.Facts₀.bcast_S1600000x1_S1600000x128_0_1
      (broadcastInDim Cert.KernelIdeal.S1600000x1 ![0] Cert.KernelIdeal.Facts₀.bcast_S1600000_S1600000x1_0 nrm) (ix2 e c) = nrm (ix1 e) :=
  (broadcastInDim_apply _ Cert.KernelIdeal.Facts₀.bcast_S1600000x1_S1600000x128_0_1 _ (ix2 e c) (ix2 e (0 : Fin 1)) (fun a => match a with
    | ⟨0, _⟩ => by show e.val = if (1600000 : Nat) = 1 then 0 else e.val; rw [if_neg (by decide)]
    | ⟨1, _⟩ => by show 0 = if (1 : Nat) = 1 then 0 else c.val; rw [if_pos rfl])).trans
  (broadcastInDim_apply _ Cert.KernelIdeal.Facts₀.bcast_S1600000_S1600000x1_0 nrm (ix2 e (0 : Fin 1)) (ix1 e) (fun a => match a with
    | ⟨0, _⟩ => by show e.val = if (1600000 : Nat) = 1 then 0 else e.val; rw [if_neg (by decide)]))

/-- A per-row factor spread over the 128 columns reads back as the factor. -/
theorem wide_row (d2 : FVec Ideal ⟨1, ![100000]⟩ .f32) (r : Fin 100000) (c : Fin 128) :
    broadcastInDim Cert.KernelIdeal.S100000x128 ![0, 1] Cert.KernelIdeal.Facts₀.bcast_S100000x1_S100000x128_0_1
      (broadcastInDim Cert.KernelIdeal.S100000x1 ![0] Cert.KernelIdeal.Facts₀.bcast_S100000_S100000x1_0 d2) (ix2 r c) = d2 (ix1 r) :=
  (broadcastInDim_apply _ Cert.KernelIdeal.Facts₀.bcast_S100000x1_S100000x128_0_1 _ (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])).trans
  (broadcastInDim_apply _ Cert.KernelIdeal.Facts₀.bcast_S100000_S100000x1_0 d2 (ix2 r (0 : Fin 1)) (ix1 r) (fun a => match a with
    | ⟨0, _⟩ => by show r.val = if (100000 : Nat) = 1 then 0 else r.val; rw [if_neg (by decide)]))

/-- The zero the sums start from, spread over the array, reads back as that zero. -/
theorem wide_zero (r : Fin 100000) (c : Fin 128) :
    broadcastInDim Cert.KernelIdeal.S100000x128 ![] Cert.KernelIdeal.Facts₀.bcast_S_S100000x128 (constant (F := Ideal) Cert.KernelIdeal.S_ .f32 0x00000000#32) (ix2 r c)
      = Ideal.ofBits .f32 0x00000000#32 :=
  broadcastInDim_apply _ Cert.KernelIdeal.Facts₀.bcast_S_S100000x128 _ (ix2 r c) ix0 (fun a => a.elim0)

/-- Element `(r, c)` of the aggregation: zero plus the sum over the edges into row `r` of column `c` of the source row
    (the source clamped into range) times the edge's factor, plus the row's own element times the row's factor.
    Only column `c` of `H` is read. -/
theorem wide_apply (H : FVec Ideal ⟨2, ![100000, 128]⟩ .f32) (srcw dstb : IVec ⟨2, ![1600000, 1]⟩ 32)
    (nrm : FVec Ideal ⟨1, ![1600000]⟩ .f32) (d2 : FVec Ideal ⟨1, ![100000]⟩ .f32) (r : Fin 100000) (c : Fin 128) :
    wide H srcw dstb nrm d2 (ix2 r c)
      = (Ideal.ofBits .f32 0x00000000#32
          + ∑ e ∈ Finset.univ.filter (fun e : Fin 1600000 => (dstb (ix2 e 0)).toInt = (r.val : Int)),
              H (ix2 (clampRow 100000 (by decide) (srcw (ix2 e 0))) c) * nrm (ix1 e))
        + H (ix2 r c) * d2 (ix1 r) := by
  unfold wide
  rw [addf_apply, mulf_apply, wide_row,
    show Cert.KernelIdeal.scatter_S100000x128_S1600000x1_S1600000x128_1_0_0_1
      = rowScatter 100000 1600000 128 Cert.KernelIdeal.Facts₀.scatter_S100000x128_S1600000x1_S1600000x128_1_0_0_1_wf from rfl,
    hostScatterAdd_rows, wide_zero]
  refine congrArg (fun s : EReal => (Ideal.ofBits .f32 0x00000000#32 + s) + H (ix2 r c) * d2 (ix1 r)) ?_
  refine Finset.sum_congr rfl fun e _ => ?_
  rw [mulf_apply, wide_edge,
    show Cert.KernelIdeal.gather_S100000x128_S1600000x1_S1600000x128_1_0_n_n_0_1_1128
      = rowGather 100000 1600000 128 Cert.KernelIdeal.Facts₀.gather_S100000x128_S1600000x1_S1600000x128_1_0_n_n_0_1_1128_wf from rfl,
    rowGather_apply (by decide)]

/-- The aggregation over rows of width 64: every edge `e` sends row `src e` of `H`, scaled by `nrm e`, to row
    `dst e`; the rows are summed per destination, and each row's own `H`, scaled by `d2`, is added. -/
def narrow (H : FVec Ideal ⟨2, ![100000, 64]⟩ .f32) (srcw dstb : IVec ⟨2, ![1600000, 1]⟩ 32)
    (nrm : FVec Ideal ⟨1, ![1600000]⟩ .f32) (d2 : FVec Ideal ⟨1, ![100000]⟩ .f32) : FVec Ideal ⟨2, ![100000, 64]⟩ .f32 :=
  addf
    (Host.scatterAdd Cert.ReferenceIdeal.scatter_S100000x64_S1600000x1_S1600000x64_1_0_0_1
      (broadcastInDim Cert.ReferenceIdeal.S100000x64 ![] Cert.ReferenceIdeal.Facts₀.bcast_S_S100000x64 (constant (F := Ideal) Cert.ReferenceIdeal.S_ .f32 0x00000000#32))
      dstb
      (mulf (Host.gather Cert.ReferenceIdeal.gather_S100000x64_S1600000x1_S1600000x64_1_0_n_n_0_1_164 H srcw)
        (broadcastInDim Cert.ReferenceIdeal.S1600000x64 ![0, 1] Cert.ReferenceIdeal.Facts₀.bcast_S1600000x1_S1600000x64_0_1
          (broadcastInDim Cert.ReferenceIdeal.S1600000x1 ![0] Cert.ReferenceIdeal.Facts₀.bcast_S1600000_S1600000x1_0 nrm))))
    (mulf H
      (broadcastInDim Cert.ReferenceIdeal.S100000x64 ![0, 1] Cert.ReferenceIdeal.Facts₀.bcast_S100000x1_S100000x64_0_1
        (broadcastInDim Cert.ReferenceIdeal.S100000x1 ![0] Cert.ReferenceIdeal.Facts₀.bcast_S100000_S100000x1_0 d2)))

/-- A per-edge factor spread over the 64 columns reads back as the factor. -/
theorem narrow_edge (nrm : FVec Ideal ⟨1, ![1600000]⟩ .f32) (e : Fin 1600000) (c : Fin 64) :
    broadcastInDim Cert.ReferenceIdeal.S1600000x64 ![0, 1] Cert.ReferenceIdeal.Facts₀.bcast_S1600000x1_S1600000x64_0_1
      (broadcastInDim Cert.ReferenceIdeal.S1600000x1 ![0] Cert.ReferenceIdeal.Facts₀.bcast_S1600000_S1600000x1_0 nrm) (ix2 e c) = nrm (ix1 e) :=
  (broadcastInDim_apply _ Cert.ReferenceIdeal.Facts₀.bcast_S1600000x1_S1600000x64_0_1 _ (ix2 e c) (ix2 e (0 : Fin 1)) (fun a => match a with
    | ⟨0, _⟩ => by show e.val = if (1600000 : Nat) = 1 then 0 else e.val; rw [if_neg (by decide)]
    | ⟨1, _⟩ => by show 0 = if (1 : Nat) = 1 then 0 else c.val; rw [if_pos rfl])).trans
  (broadcastInDim_apply _ Cert.ReferenceIdeal.Facts₀.bcast_S1600000_S1600000x1_0 nrm (ix2 e (0 : Fin 1)) (ix1 e) (fun a => match a with
    | ⟨0, _⟩ => by show e.val = if (1600000 : Nat) = 1 then 0 else e.val; rw [if_neg (by decide)]))

/-- A per-row factor spread over the 64 columns reads back as the factor. -/
theorem narrow_row (d2 : FVec Ideal ⟨1, ![100000]⟩ .f32) (r : Fin 100000) (c : Fin 64) :
    broadcastInDim Cert.ReferenceIdeal.S100000x64 ![0, 1] Cert.ReferenceIdeal.Facts₀.bcast_S100000x1_S100000x64_0_1
      (broadcastInDim Cert.ReferenceIdeal.S100000x1 ![0] Cert.ReferenceIdeal.Facts₀.bcast_S100000_S100000x1_0 d2) (ix2 r c) = d2 (ix1 r) :=
  (broadcastInDim_apply _ Cert.ReferenceIdeal.Facts₀.bcast_S100000x1_S100000x64_0_1 _ (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])).trans
  (broadcastInDim_apply _ Cert.ReferenceIdeal.Facts₀.bcast_S100000_S100000x1_0 d2 (ix2 r (0 : Fin 1)) (ix1 r) (fun a => match a with
    | ⟨0, _⟩ => by show r.val = if (100000 : Nat) = 1 then 0 else r.val; rw [if_neg (by decide)]))

/-- The zero the sums start from, spread over the array, reads back as that zero. -/
theorem narrow_zero (r : Fin 100000) (c : Fin 64) :
    broadcastInDim Cert.ReferenceIdeal.S100000x64 ![] Cert.ReferenceIdeal.Facts₀.bcast_S_S100000x64 (constant (F := Ideal) Cert.ReferenceIdeal.S_ .f32 0x00000000#32) (ix2 r c)
      = Ideal.ofBits .f32 0x00000000#32 :=
  broadcastInDim_apply _ Cert.ReferenceIdeal.Facts₀.bcast_S_S100000x64 _ (ix2 r c) ix0 (fun a => a.elim0)

/-- Element `(r, c)` of the aggregation: zero plus the sum over the edges into row `r` of column `c` of the source row
    (the source clamped into range) times the edge's factor, plus the row's own element times the row's factor.
    Only column `c` of `H` is read. -/
theorem narrow_apply (H : FVec Ideal ⟨2, ![100000, 64]⟩ .f32) (srcw dstb : IVec ⟨2, ![1600000, 1]⟩ 32)
    (nrm : FVec Ideal ⟨1, ![1600000]⟩ .f32) (d2 : FVec Ideal ⟨1, ![100000]⟩ .f32) (r : Fin 100000) (c : Fin 64) :
    narrow H srcw dstb nrm d2 (ix2 r c)
      = (Ideal.ofBits .f32 0x00000000#32
          + ∑ e ∈ Finset.univ.filter (fun e : Fin 1600000 => (dstb (ix2 e 0)).toInt = (r.val : Int)),
              H (ix2 (clampRow 100000 (by decide) (srcw (ix2 e 0))) c) * nrm (ix1 e))
        + H (ix2 r c) * d2 (ix1 r) := by
  unfold narrow
  rw [addf_apply, mulf_apply, narrow_row,
    show Cert.ReferenceIdeal.scatter_S100000x64_S1600000x1_S1600000x64_1_0_0_1
      = rowScatter 100000 1600000 64 Cert.ReferenceIdeal.Facts₀.scatter_S100000x64_S1600000x1_S1600000x64_1_0_0_1_wf from rfl,
    hostScatterAdd_rows, narrow_zero]
  refine congrArg (fun s : EReal => (Ideal.ofBits .f32 0x00000000#32 + s) + H (ix2 r c) * d2 (ix1 r)) ?_
  refine Finset.sum_congr rfl fun e _ => ?_
  rw [mulf_apply, narrow_edge,
    show Cert.ReferenceIdeal.gather_S100000x64_S1600000x1_S1600000x64_1_0_n_n_0_1_164
      = rowGather 100000 1600000 64 Cert.ReferenceIdeal.Facts₀.gather_S100000x64_S1600000x1_S1600000x64_1_0_n_n_0_1_164_wf from rfl,
    rowGather_apply (by decide)]

/-- A band of 64 columns of the wide aggregation is the narrow aggregation of that band of `H`: column `c` of the
    narrow array being column `c'` of the wide one, row by row, so are the aggregated columns. -/
theorem narrow_eq_wide_col (H : FVec Ideal ⟨2, ![100000, 128]⟩ .f32) (H' : FVec Ideal ⟨2, ![100000, 64]⟩ .f32)
    (srcw dstb : IVec ⟨2, ![1600000, 1]⟩ 32) (nrm : FVec Ideal ⟨1, ![1600000]⟩ .f32) (d2 : FVec Ideal ⟨1, ![100000]⟩ .f32)
    (c : Fin 64) (c' : Fin 128) (hcol : ∀ r : Fin 100000, H' (ix2 r c) = H (ix2 r c')) (r : Fin 100000) :
    narrow H' srcw dstb nrm d2 (ix2 r c) = wide H srcw dstb nrm d2 (ix2 r c') := by
  rw [narrow_apply, wide_apply]
  simp only [hcol]

end Cert.Agg

end
-- ==== Proof.KernelTail.lean ====
/-
  The kernel program after its region, read back.

  Before the region the host lines cut the edge list into its source and destination rows, count each node's incoming
  edges, take the inverse square root of the count plus one, and set the two weight arrays side by side. The region
  writes the product array. After it come the aggregation over the edges — done once, on the 128-column product — and,
  for each result, a band of 64 columns of the aggregated array plus that result's bias. The edge and node factors
  and the wrapped indices are the same terms the reference computes; they are named by the reference's stages and
  never opened.
-/
import proofs.«111841_j53120155517008_2_alg».proof.Proof.Gen.KernelIdeal.Frame
import proofs.«111841_j53120155517008_2_alg».proof.Proof.Gen.ReferenceIdeal.Read
import proofs.«111841_j53120155517008_2_alg».proof.Proof.Aggregate
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-! ## What the lines before the region leave -/

/-- The source row of the edge list. -/
theorem V_src : V m c main_v1 = Cert.ReferenceIdeal.Read.val_main_v1 (F := Ideal) (m ((c.tc : Thread nD τ).loc main_arg5)) := by
  show StableHlo.after hostOps0 (fun b => m (c, b)) (Proc.devRef .tc main_v1) = _
  after_results
  rfl

/-- The destination row of the edge list. -/
theorem V_dst : V m c main_v3 = Cert.ReferenceIdeal.Read.val_main_v3 (F := Ideal) (m ((c.tc : Thread nD τ).loc main_arg5)) := by
  show StableHlo.after hostOps0 (fun b => m (c, b)) (Proc.devRef .tc main_v3) = _
  after_results
  rfl

/-- The inverse square root of each node's degree (incoming edges plus one). -/
theorem V_dinv : V m c main_v10 = Cert.ReferenceIdeal.Read.val_main_v10 (F := Ideal) (m ((c.tc : Thread nD τ).loc main_arg5)) := by
  show StableHlo.after hostOps0 (fun b => m (c, b)) (Proc.devRef .tc main_v10) = _
  after_results
  rfl

/-- The two weight arrays side by side. -/
theorem V_weights : V m c main_v11
    = concatenate S128x128 1 [⟨S128x64, m ((c.tc : Thread nD τ).loc main_arg1)⟩, ⟨S128x64, m ((c.tc : Thread nD τ).loc main_arg3)⟩]
        Facts₀.concatenates_S128x64_S128x64_S128x128_d1 := by
  show StableHlo.after hostOps0 (fun b => m (c, b)) (Proc.devRef .tc main_v11) = _
  after_results

/-! ## The two results -/

/-- The first result: columns 0 … 63 of the aggregated product, plus the first bias. -/
theorem out0 : Pipeline.afterTail₀ cfgs (dats (F := Ideal) m) 0 (V0 m) [hostOps1] c main_v49
    = addf (extractStridedSlice S100000x64 ![0, 0]
        (Cert.Agg.wide ((dats (F := Ideal) m 0 c).arrAt 2 cfg0.N)
          (Cert.ReferenceIdeal.Read.val_main_v32 (F := Ideal) (m ((c.tc : Thread nD τ).loc main_arg5)))
          (Cert.ReferenceIdeal.Read.val_main_v38 (F := Ideal) (m ((c.tc : Thread nD τ).loc main_arg5)))
          (Cert.ReferenceIdeal.Read.val_main_v26 (F := Ideal) (m ((c.tc : Thread nD τ).loc main_arg5)))
          (Cert.ReferenceIdeal.Read.val_main_v40 (F := Ideal) (m ((c.tc : Thread nD τ).loc main_arg5))))
        Facts₀.slices_S100000x128_S100000x64_0_0)
      (Cert.ReferenceIdeal.Read.val_main_v46 (F := Ideal) (m ((c.tc : Thread nD τ).loc main_arg2))) := by
  unfold Pipeline.afterTail₀
  show StableHlo.after hostOps1 _ (Proc.devRef .tc main_v49) = _
  generalize hW : Pipeline.withArrays _ _ _ _ = W
  after_results_simp
  have h12 : W (Proc.devRef .tc main_v12) = (dats (F := Ideal) m 0 c).arrAt 2 cfg0.N := by
    rw [← hW]; exact Pipeline.withArrays_arr spec0 launch0.win.arr_inj c _ _ 2
  have hne : ∀ b : Ref sig .tc, (∀ w, Pipeline.arrRef spec0 w ≠ b) → W (Proc.devRef .tc b) = V m c b := fun b hb => by
    rw [← hW]; exact Pipeline.withArrays_of_ne _ c (V0 m c) _ b hb
  rw [h12, hne main_v1 (by decide), hne main_v3 (by decide), hne main_v10 (by decide), hne main_arg2 (by decide),
    V_src, V_dst, V_dinv, V_main_arg2]
  rfl

/-- The second result: columns 64 … 127 of the aggregated product, plus the second bias. -/
theorem out1 : Pipeline.afterTail₀ cfgs (dats (F := Ideal) m) 0 (V0 m) [hostOps1] c main_v53
    = addf (extractStridedSlice S100000x64 ![0, 64]
        (Cert.Agg.wide ((dats (F := Ideal) m 0 c).arrAt 2 cfg0.N)
          (Cert.ReferenceIdeal.Read.val_main_v32 (F := Ideal) (m ((c.tc : Thread nD τ).loc main_arg5)))
          (Cert.ReferenceIdeal.Read.val_main_v38 (F := Ideal) (m ((c.tc : Thread nD τ).loc main_arg5)))
          (Cert.ReferenceIdeal.Read.val_main_v26 (F := Ideal) (m ((c.tc : Thread nD τ).loc main_arg5)))
          (Cert.ReferenceIdeal.Read.val_main_v40 (F := Ideal) (m ((c.tc : Thread nD τ).loc main_arg5))))
        Facts₀.slices_S100000x128_S100000x64_0_64)
      (Cert.ReferenceIdeal.Read.val_main_v83 (F := Ideal) (m ((c.tc : Thread nD τ).loc main_arg4))) := by
  unfold Pipeline.afterTail₀
  show StableHlo.after hostOps1 _ (Proc.devRef .tc main_v53) = _
  generalize hW : Pipeline.withArrays _ _ _ _ = W
  after_results_simp
  have h12 : W (Proc.devRef .tc main_v12) = (dats (F := Ideal) m 0 c).arrAt 2 cfg0.N := by
    rw [← hW]; exact Pipeline.withArrays_arr spec0 launch0.win.arr_inj c _ _ 2
  have hne : ∀ b : Ref sig .tc, (∀ w, Pipeline.arrRef spec0 w ≠ b) → W (Proc.devRef .tc b) = V m c b := fun b hb => by
    rw [← hW]; exact Pipeline.withArrays_of_ne _ c (V0 m c) _ b hb
  rw [h12, hne main_v1 (by decide), hne main_v3 (by decide), hne main_v10 (by decide), hne main_arg4 (by decide),
    V_src, V_dst, V_dinv, V_main_arg4]
  rfl

end Cert.KernelIdeal.Tail

end
-- ==== Proof.Columns.lean ====
/-
  Columns: how the two programs' arrays line up.

  The reference multiplies the features by each 64-column weight array separately; the kernel multiplies them once by
  the two weight arrays set side by side. Column `q` of the first reference product is column `q` of the wide product,
  column `q` of the second is column `64 + q`: in each case the entry is the sum over `k` of feature `(r, k)` times
  weight `(k, q)` of the matching weight array. With the aggregation read one column at a time, each result of the
  kernel — a band of 64 columns of the wide aggregation plus a bias — is the reference's narrow aggregation of the
  matching product plus the same bias.
-/
import proofs.«111841_j53120155517008_2_alg».proof.Proof.Gen.ReferenceIdeal.Read
import proofs.«111841_j53120155517008_2_alg».proof.Proof.Aggregate

set_option maxRecDepth 16384

noncomputable section

open scoped BigOperators

namespace Cert.Columns

open Idealize.ShloMosaic Idealize.ShloMosaic.ValueIdx Cert.Agg

/-! ## The reference's two products, column by column -/

/-- Entry `(r, q)` of the features times the first weight array. -/
theorem dot_first (x0 : FVec Ideal ⟨2, ![100000, 128]⟩ .f32) (x1 : FVec Ideal ⟨2, ![128, 64]⟩ .f32) (r : Fin 100000) (q : Fin 64) :
    Cert.ReferenceIdeal.Read.val_main_v11 (F := Ideal) x0 x1 (ix2 r q) = ∑ k : Fin 128, x0 (ix2 r k) * x1 (ix2 k q) := by
  rw [Cert.ReferenceIdeal.Read.val_main_v11_apply]
  refine Finset.sum_congr rfl fun k _ => ?_
  have el : Cert.ReferenceIdeal.Read.lidx_main_v11 (ix2 r q) k = ix2 r k :=
    funext fun a => Fin.ext (by match a with | ⟨0, _⟩ => rfl | ⟨1, _⟩ => rfl)
  have er : Cert.ReferenceIdeal.Read.ridx_main_v11 (ix2 r q) k = ix2 k q :=
    funext fun a => Fin.ext (by match a with | ⟨0, _⟩ => rfl | ⟨1, _⟩ => rfl)
  rw [el, er]

/-- Entry `(r, q)` of the features times the second weight array. -/
theorem dot_second (x0 : FVec Ideal ⟨2, ![100000, 128]⟩ .f32) (x3 : FVec Ideal ⟨2, ![128, 64]⟩ .f32) (r : Fin 100000) (q : Fin 64) :
    Cert.ReferenceIdeal.Read.val_main_v48 (F := Ideal) x0 x3 (ix2 r q) = ∑ k : Fin 128, x0 (ix2 r k) * x3 (ix2 k q) := by
  rw [Cert.ReferenceIdeal.Read.val_main_v48_apply]
  refine Finset.sum_congr rfl fun k _ => ?_
  have el : Cert.ReferenceIdeal.Read.lidx_main_v48 (ix2 r q) k = ix2 r k :=
    funext fun a => Fin.ext (by match a with | ⟨0, _⟩ => rfl | ⟨1, _⟩ => rfl)
  have er : Cert.ReferenceIdeal.Read.ridx_main_v48 (ix2 r q) k = ix2 k q :=
    funext fun a => Fin.ext (by match a with | ⟨0, _⟩ => rfl | ⟨1, _⟩ => rfl)
  rw [el, er]

/-! ## The two weight arrays side by side -/

/-- Columns 0 … 63 of the joined weights are the first array's. -/
theorem weights_left (x1 x3 : FVec Ideal ⟨2, ![128, 64]⟩ .f32) (k : Fin 128) (q : Fin 64) :
    concatenate Cert.KernelIdeal.S128x128 1 [⟨Cert.KernelIdeal.S128x64, x1⟩, ⟨Cert.KernelIdeal.S128x64, x3⟩] Cert.KernelIdeal.Facts₀.concatenates_S128x64_S128x64_S128x128_d1
      (ix2 k (⟨q.val, Nat.lt_trans q.isLt (by decide)⟩ : Fin 128)) = x1 (ix2 k q) :=
  concatenate_pair_apply_left (t := Cert.KernelIdeal.S128x128) (s₁ := Cert.KernelIdeal.S128x64) (s₂ := Cert.KernelIdeal.S128x64) 1 x1 x3
    Cert.KernelIdeal.Facts₀.concatenates_S128x64_S128x64_S128x128_d1 (ix2 k (⟨q.val, Nat.lt_trans q.isLt (by decide)⟩ : Fin 128)) rfl (ix2 k q)
    (fun b => match b with | ⟨0, _⟩ => rfl | ⟨1, _⟩ => rfl)

/-- Columns 64 … 127 are the second array's. -/
theorem weights_right (x1 x3 : FVec Ideal ⟨2, ![128, 64]⟩ .f32) (k : Fin 128) (q : Fin 64) :
    concatenate Cert.KernelIdeal.S128x128 1 [⟨Cert.KernelIdeal.S128x64, x1⟩, ⟨Cert.KernelIdeal.S128x64, x3⟩] Cert.KernelIdeal.Facts₀.concatenates_S128x64_S128x64_S128x128_d1
      (ix2 k (⟨q.val + 64, by have := q.isLt; omega⟩ : Fin 128)) = x3 (ix2 k q) :=
  concatenate_pair_apply_right (t := Cert.KernelIdeal.S128x128) (s₁ := Cert.KernelIdeal.S128x64) (s₂ := Cert.KernelIdeal.S128x64) 1 x1 x3
    Cert.KernelIdeal.Facts₀.concatenates_S128x64_S128x64_S128x128_d1 (ix2 k (⟨q.val + 64, by have := q.isLt; omega⟩ : Fin 128)) rfl rfl (ix2 k q)
    (fun b hb => match b, hb with | ⟨0, _⟩, _ => rfl | ⟨1, _⟩, hb => absurd rfl hb) rfl

/-! ## A band of the wide aggregation plus a bias -/

/-- Columns 0 … 63: if the narrow array is that band of the wide one, the band of the wide aggregation plus `b` is the
    narrow aggregation plus `b`. -/
theorem band_low (H : FVec Ideal ⟨2, ![100000, 128]⟩ .f32) (H' : FVec Ideal ⟨2, ![100000, 64]⟩ .f32)
    (srcw dstb : IVec ⟨2, ![1600000, 1]⟩ 32) (nrm : FVec Ideal ⟨1, ![1600000]⟩ .f32) (d2 : FVec Ideal ⟨1, ![100000]⟩ .f32)
    (b : FVec Ideal ⟨2, ![100000, 64]⟩ .f32)
    (hcol : ∀ (r : Fin 100000) (q : Fin 64), H' (ix2 r q) = H (ix2 r (⟨q.val, Nat.lt_trans q.isLt (by decide)⟩ : Fin 128))) :
    addf (extractStridedSlice Cert.KernelIdeal.S100000x64 ![0, 0] (wide H srcw dstb nrm d2) Cert.KernelIdeal.Facts₀.slices_S100000x128_S100000x64_0_0) b
      = addf (narrow H' srcw dstb nrm d2) b := by
  funext i
  obtain ⟨r, q, rfl⟩ : ∃ (r : Fin 100000) (q : Fin 64), i = ix2 r q := ⟨i 0, i 1, eq_ix2 i⟩
  rw [addf_apply, addf_apply,
    extractStridedSlice_apply ![0, 0] (wide H srcw dstb nrm d2) Cert.KernelIdeal.Facts₀.slices_S100000x128_S100000x64_0_0 (ix2 r q)
      (ix2 r (⟨q.val, Nat.lt_trans q.isLt (by decide)⟩ : Fin 128)) (fun a => match a with
        | ⟨0, _⟩ => by show r.val = 0 + r.val; omega
        | ⟨1, _⟩ => by show q.val = 0 + q.val; omega),
    narrow_eq_wide_col H H' srcw dstb nrm d2 q _ (fun r' => hcol r' q) r]

/-- Columns 64 … 127, likewise. -/
theorem band_high (H : FVec Ideal ⟨2, ![100000, 128]⟩ .f32) (H' : FVec Ideal ⟨2, ![100000, 64]⟩ .f32)
    (srcw dstb : IVec ⟨2, ![1600000, 1]⟩ 32) (nrm : FVec Ideal ⟨1, ![1600000]⟩ .f32) (d2 : FVec Ideal ⟨1, ![100000]⟩ .f32)
    (b : FVec Ideal ⟨2, ![100000, 64]⟩ .f32)
    (hcol : ∀ (r : Fin 100000) (q : Fin 64), H' (ix2 r q) = H (ix2 r (⟨q.val + 64, by have := q.isLt; omega⟩ : Fin 128))) :
    addf (extractStridedSlice Cert.KernelIdeal.S100000x64 ![0, 64] (wide H srcw dstb nrm d2) Cert.KernelIdeal.Facts₀.slices_S100000x128_S100000x64_0_64) b
      = addf (narrow H' srcw dstb nrm d2) b := by
  funext i
  obtain ⟨r, q, rfl⟩ : ∃ (r : Fin 100000) (q : Fin 64), i = ix2 r q := ⟨i 0, i 1, eq_ix2 i⟩
  rw [addf_apply, addf_apply,
    extractStridedSlice_apply ![0, 64] (wide H srcw dstb nrm d2) Cert.KernelIdeal.Facts₀.slices_S100000x128_S100000x64_0_64 (ix2 r q)
      (ix2 r (⟨q.val + 64, by have := q.isLt; omega⟩ : Fin 128)) (fun a => match a with
        | ⟨0, _⟩ => by show r.val = 0 + r.val; omega
        | ⟨1, _⟩ => by show q.val + 64 = 64 + q.val; omega),
    narrow_eq_wide_col H H' srcw dstb nrm d2 q _ (fun r' => hcol r' q) r]

/-! ## The reference's results over the narrow aggregation -/

/-- The first result of the reference: the narrow aggregation of the first product, plus the first bias. -/
theorem ref_first (x0 : FVec Ideal ⟨2, ![100000, 128]⟩ .f32) (x1 : FVec Ideal ⟨2, ![128, 64]⟩ .f32)
    (x2 : FVec Ideal ⟨1, ![64]⟩ .f32) (x5 : IVec ⟨2, ![2, 1600000]⟩ 32) :
    Cert.ReferenceIdeal.Read.val_main_v47 (F := Ideal) x0 x1 x2 x5
      = addf (narrow (Cert.ReferenceIdeal.Read.val_main_v11 (F := Ideal) x0 x1) (Cert.ReferenceIdeal.Read.val_main_v32 (F := Ideal) x5) (Cert.ReferenceIdeal.Read.val_main_v38 (F := Ideal) x5)
          (Cert.ReferenceIdeal.Read.val_main_v26 (F := Ideal) x5) (Cert.ReferenceIdeal.Read.val_main_v40 (F := Ideal) x5)) (Cert.ReferenceIdeal.Read.val_main_v46 (F := Ideal) x2) := rfl

/-- The second result: the narrow aggregation of the second product, plus the second bias. -/
theorem ref_second (x0 : FVec Ideal ⟨2, ![100000, 128]⟩ .f32) (x3 : FVec Ideal ⟨2, ![128, 64]⟩ .f32)
    (x4 : FVec Ideal ⟨1, ![64]⟩ .f32) (x5 : IVec ⟨2, ![2, 1600000]⟩ 32) :
    Cert.ReferenceIdeal.Read.val_main_v84 (F := Ideal) x0 x3 x4 x5
      = addf (narrow (Cert.ReferenceIdeal.Read.val_main_v48 (F := Ideal) x0 x3) (Cert.ReferenceIdeal.Read.val_main_v32 (F := Ideal) x5) (Cert.ReferenceIdeal.Read.val_main_v38 (F := Ideal) x5)
          (Cert.ReferenceIdeal.Read.val_main_v26 (F := Ideal) x5) (Cert.ReferenceIdeal.Read.val_main_v40 (F := Ideal) x5)) (Cert.ReferenceIdeal.Read.val_main_v83 (F := Ideal) x4) := rfl

end Cert.Columns

end
-- ==== Proof.KernelValue.lean ====
/-
  The kernel program's two results are the reference's.

  After the run the first result buffer holds columns 0 … 63 of the aggregated wide product plus the first bias, the
  second columns 64 … 127 plus the second bias. The wide product's column `q` is the features times column `q` of the
  joined weights, which is column `q` of the first weight array for `q < 64` and column `q − 64` of the second
  otherwise — the reference's two products. Reading the aggregation column by column then makes each result the
  reference's stage for it, as functions of the argument arrays.
-/
import proofs.«111841_j53120155517008_2_alg».proof.Proof.KernelArray
import proofs.«111841_j53120155517008_2_alg».proof.Proof.KernelTail
import proofs.«111841_j53120155517008_2_alg».proof.Proof.Columns

set_option maxRecDepth 16384

noncomputable section

open scoped BigOperators

namespace Cert.KernelIdeal.Results

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The first result is the reference's first stage of the argument arrays. -/
theorem first : Pipeline.afterTail₀ cfgs (dats (F := Ideal) m) 0 (V0 m) [hostOps1] c main_v49
    = Cert.ReferenceIdeal.Read.val_main_v47 (F := Ideal) (m ((c.tc : Thread nD τ).loc main_arg0)) (m ((c.tc : Thread nD τ).loc main_arg1))
        (m ((c.tc : Thread nD τ).loc main_arg2)) (m ((c.tc : Thread nD τ).loc main_arg5)) := by
  rw [Tail.out0, Region.final, Cert.Columns.ref_first]
  refine Cert.Columns.band_low _ _ _ _ _ _ _ (fun r q => ?_)
  rw [Cert.Columns.dot_first, V_main_arg0, Tail.V_weights]
  refine Finset.sum_congr rfl fun k _ => ?_
  exact congrArg (fun w : EReal => (show EReal from m ((c.tc : Thread nD τ).loc main_arg0) (ix2 r k)) * w)
    (Cert.Columns.weights_left _ _ k q).symm

/-- The second result is the reference's second stage of the argument arrays. -/
theorem second : Pipeline.afterTail₀ cfgs (dats (F := Ideal) m) 0 (V0 m) [hostOps1] c main_v53
    = Cert.ReferenceIdeal.Read.val_main_v84 (F := Ideal) (m ((c.tc : Thread nD τ).loc main_arg0)) (m ((c.tc : Thread nD τ).loc main_arg3))
        (m ((c.tc : Thread nD τ).loc main_arg4)) (m ((c.tc : Thread nD τ).loc main_arg5)) := by
  rw [Tail.out1, Region.final, Cert.Columns.ref_second]
  refine Cert.Columns.band_high _ _ _ _ _ _ _ (fun r q => ?_)
  rw [Cert.Columns.dot_second, V_main_arg0, Tail.V_weights]
  refine Finset.sum_congr rfl fun k _ => ?_
  exact congrArg (fun w : EReal => (show EReal from m ((c.tc : Thread nD τ).loc main_arg0) (ix2 r k)) * w)
    (Cert.Columns.weights_right _ _ k q).symm

end Cert.KernelIdeal.Results

end
-- ==== Proof.lean ====
/-
  The certificate of a graph-convolution kernel against its reference, over the extended reals.

  Both programs compute two graph convolutions sharing one graph: `out = Â (x W) + b` for two weight arrays, where
  `Â` adds, for every edge `src → dst`, row `src` scaled by `dinv src · dinv dst` into row `dst`, plus each row
  scaled by `dinv²`, and `dinv` is the inverse square root of the in-degree plus one. The reference does this twice
  with 64-column products. The kernel sets the two weight arrays side by side, forms the 128-column product
  `x [W₁ | W₂]` in one tiled matrix multiplication (ten row blocks; the narrower float format it multiplies in is the
  identity on extended reals), aggregates that once, and cuts the two results out as column bands.

  The two agree index by index because the aggregation never mixes columns: element `(r, q)` of `Â H` reads only column
  `q` of `H`, and column `q` (resp. `64 + q`) of `x [W₁ | W₂]` is column `q` of `x W₁` (resp. `x W₂`). The edge and
  node factors are the same terms in both programs and are never opened; no law of the extended reals beyond reading
  sums term by term is used, so the finiteness of the inputs is not needed. The idealization rewrote nothing, so the
  preservation claim is trivial; the three frames are the programs' runs with the results dropped.
-/
import proofs.«111841_j53120155517008_2_alg».proof.Defs
import proofs.«111841_j53120155517008_2_alg».proof.Proof.Gen.Kernel
import proofs.«111841_j53120155517008_2_alg».proof.Proof.Gen.Kernel.Skeleton
import proofs.«111841_j53120155517008_2_alg».proof.Proof.Gen.Kernel.Launch
import proofs.«111841_j53120155517008_2_alg».proof.Proof.Gen.Kernel.Points
import proofs.«111841_j53120155517008_2_alg».proof.Proof.Gen.Kernel.Frame
import proofs.«111841_j53120155517008_2_alg».proof.Proof.Gen.KernelIdeal
import proofs.«111841_j53120155517008_2_alg».proof.Proof.Gen.KernelIdeal.Skeleton
import proofs.«111841_j53120155517008_2_alg».proof.Proof.Gen.KernelIdeal.Launch
import proofs.«111841_j53120155517008_2_alg».proof.Proof.Gen.KernelIdeal.Points
import proofs.«111841_j53120155517008_2_alg».proof.Proof.Gen.KernelIdeal.Frame
import proofs.«111841_j53120155517008_2_alg».proof.Proof.Gen.ReferenceIdeal
import proofs.«111841_j53120155517008_2_alg».proof.Proof.Gen.Pre_finite_inputs
import proofs.«111841_j53120155517008_2_alg».proof.Proof.Gen.ReferenceIdeal.Run
import proofs.«111841_j53120155517008_2_alg».proof.Proof.Gen.ReferenceIdeal.Read
import proofs.«111841_j53120155517008_2_alg».proof.Proof.KernelValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with each result at the reference's stage for it of
    the argument arrays: the reference by its run, the kernel program by its frame run read back. -/
theorem algebraic : Cert.algebraic_KernelIdeal_ReferenceIdeal := by
  intro m ρ m' ρ' _ hagree
  refine ⟨fun c => Cert.ReferenceIdeal.Value.res_main_v47 m' c, fun c => Cert.ReferenceIdeal.Value.res_main_v84 m' c, ?_,
    Cert.ReferenceIdeal.Value.run (F := Ideal) m' ρ'⟩
  refine (θ_run Cert.KernelIdeal.defs _ _).mono (fun _ h c => ?_) (Cert.KernelIdeal.Gen.run_main m ρ)
  obtain ⟨a0, a1, a2, a3, a4, a5⟩ := hagree c
  refine ⟨?_, ?_,
    ((h c).1 0).trans (((Cert.KernelIdeal.Gen.dats m 0 c).arrAt_in 0 rfl _).trans
      ((Cert.KernelIdeal.Gen.A_eq m c 0).trans (Cert.KernelIdeal.Gen.V_main_arg0 m c))),
    ((h c).2 Cert.KernelIdeal.main_arg1 (Pipeline.mem_restRefs_of Cert.KernelIdeal.main_arg1 (by decide) (by decide))).trans
      (Cert.KernelIdeal.Gen.W_main_arg1 m (Cert.KernelIdeal.Gen.dats m) c),
    ((h c).2 Cert.KernelIdeal.main_arg2 (Pipeline.mem_restRefs_of Cert.KernelIdeal.main_arg2 (by decide) (by decide))).trans
      (Cert.KernelIdeal.Gen.W_main_arg2 m (Cert.KernelIdeal.Gen.dats m) c),
    ((h c).2 Cert.KernelIdeal.main_arg3 (Pipeline.mem_restRefs_of Cert.KernelIdeal.main_arg3 (by decide) (by decide))).trans
      (Cert.KernelIdeal.Gen.W_main_arg3 m (Cert.KernelIdeal.Gen.dats m) c),
    ((h c).2 Cert.KernelIdeal.main_arg4 (Pipeline.mem_restRefs_of Cert.KernelIdeal.main_arg4 (by decide) (by decide))).trans
      (Cert.KernelIdeal.Gen.W_main_arg4 m (Cert.KernelIdeal.Gen.dats m) c),
    ((h c).2 Cert.KernelIdeal.main_arg5 (Pipeline.mem_restRefs_of Cert.KernelIdeal.main_arg5 (by decide) (by decide))).trans
      (Cert.KernelIdeal.Gen.W_main_arg5 m (Cert.KernelIdeal.Gen.dats m) c)⟩
  · refine ((h c).2 Cert.KernelIdeal.main_v49 (Pipeline.mem_restRefs_of Cert.KernelIdeal.main_v49 (by decide) (by decide))).trans ?_
    rw [Cert.KernelIdeal.Results.first]
    show _ = Cert.ReferenceIdeal.Value.res_main_v47 m' c
    rw [Cert.ReferenceIdeal.Read.val_main_v47_eq, a0, a1, a2, a5]
  · refine ((h c).2 Cert.KernelIdeal.main_v53 (Pipeline.mem_restRefs_of Cert.KernelIdeal.main_v53 (by decide) (by decide))).trans ?_
    rw [Cert.KernelIdeal.Results.second]
    show _ = Cert.ReferenceIdeal.Value.res_main_v84 m' c
    rw [Cert.ReferenceIdeal.Read.val_main_v84_eq, a0, a3, a4, a5]

/-- The five claims, under the facts the generated modules prove of the programs. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
